-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x128x128x64 : Shape := ⟨5, ![4, 8, 128, 128, 64]⟩
abbrev S4x1x128x128x128 : Shape := ⟨5, ![4, 1, 128, 128, 128]⟩
abbrev S_ : Shape := ⟨0, ![]⟩

class Facts : Prop where
  bcast_S_S4x8x128x128x64 : S_.BroadcastsInDim S4x8x128x128x64 (![] : Fin 0 → Fin S4x8x128x128x64.rank)
  reducesTo_S4x8x128x128x64_S_d0_1_2_3_4 : S4x8x128x128x64.ReducesTo [0, 1, 2, 3, 4] S_
  h_S_ : 0 < S_.numel

variable [Facts]

def fn {F : FTy → Type} [FloatOps F] (main_arg0 : FVec F S4x8x128x128x64 .f32) (main_arg1 : FVec F S4x8x128x128x64 .f32) (main_arg2 : FVec F S4x8x128x128x64 .f32) (main_arg3 : IVec S4x1x128x128x128 32) : IVec S_ 1 :=
  let main_v0 : FVec F S4x8x128x128x64 .f32 := Host.absf main_arg0
  let main_cst : FVec F S_ .f32 := constant S_ .f32 0x7F800000#32
  let main_v1 : FVec F S4x8x128x128x64 .f32 := broadcastInDim S4x8x128x128x64 ![] bcast_S_S4x8x128x128x64 main_cst
  let main_v2 : IVec S4x8x128x128x64 1 := cmpf .olt main_v0 main_v1
  let main_c : IVec S_ 1 := constantI S_ 1 1#1
  let main_v3 : IVec S_ 1 := (fun x v => Host.reduce IntOp.andi x v reducesTo_S4x8x128x128x64_S_d0_1_2_3_4 h_S_) main_v2 main_c
  let main_v4 : FVec F S4x8x128x128x64 .f32 := Host.absf main_arg1
  let main_cst_0 : FVec F S_ .f32 := constant S_ .f32 0x7F800000#32
  let main_v5 : FVec F S4x8x128x128x64 .f32 := broadcastInDim S4x8x128x128x64 ![] bcast_S_S4x8x128x128x64 main_cst_0
  let main_v6 : IVec S4x8x128x128x64 1 := cmpf .olt main_v4 main_v5
  let main_c_1 : IVec S_ 1 := constantI S_ 1 1#1
  let main_v7 : IVec S_ 1 := (fun x v => Host.reduce IntOp.andi x v reducesTo_S4x8x128x128x64_S_d0_1_2_3_4 h_S_) main_v6 main_c_1
  let main_v8 : IVec S_ 1 := andi main_v3 main_v7
  let main_v9 : FVec F S4x8x128x128x64 .f32 := Host.absf main_arg2
  let main_cst_2 : FVec F S_ .f32 := constant S_ .f32 0x7F800000#32
  let main_v10 : FVec F S4x8x128x128x64 .f32 := broadcastInDim S4x8x128x128x64 ![] bcast_S_S4x8x128x128x64 main_cst_2
  let main_v11 : IVec S4x8x128x128x64 1 := cmpf .olt main_v9 main_v10
  let main_c_3 : IVec S_ 1 := constantI S_ 1 1#1
  let main_v12 : IVec S_ 1 := (fun x v => Host.reduce IntOp.andi x v reducesTo_S4x8x128x128x64_S_d0_1_2_3_4 h_S_) main_v11 main_c_3
  let main_v13 : IVec S_ 1 := andi main_v8 main_v12
  main_v13
-- ==== Kernel.lean ====
abbrev S4x8x128x128x64 : Shape := ⟨5, ![4, 8, 128, 128, 64]⟩
abbrev S4x1x128x128x128 : Shape := ⟨5, ![4, 1, 128, 128, 128]⟩
abbrev S1x1x64x128x64 : Shape := ⟨5, ![1, 1, 64, 128, 64]⟩
abbrev S1x1x64x128x128 : Shape := ⟨5, ![1, 1, 64, 128, 128]⟩
abbrev S64x128x64 : Shape := ⟨3, ![64, 128, 64]⟩
abbrev S64x128x128 : Shape := ⟨3, ![64, 128, 128]⟩
abbrev S64x128 : Shape := ⟨2, ![64, 128]⟩
abbrev S64x128x1 : Shape := ⟨3, ![64, 128, 1]⟩

abbrev nBuf : Space → Nat
  | .hbm => 5
  | .vmem => 10
  | .smem => 0
  | _ => 0

abbrev bufTy : (tb : Table) → Fin (tcTables nBuf tb) → BufTy
  | .hbm, ⟨0, _⟩ => ⟨S4x8x128x128x64, .f32⟩
  | .hbm, ⟨1, _⟩ => ⟨S4x8x128x128x64, .f32⟩
  | .hbm, ⟨2, _⟩ => ⟨S4x8x128x128x64, .f32⟩
  | .hbm, ⟨3, _⟩ => ⟨S4x1x128x128x128, .i32⟩
  | .hbm, ⟨4, _⟩ => ⟨S4x8x128x128x64, .f32⟩
  | .local _ .vmem, ⟨0, _⟩ => ⟨S1x1x64x128x64, .f32⟩
  | .local _ .vmem, ⟨1, _⟩ => ⟨S1x1x64x128x64, .f32⟩
  | .local _ .vmem, ⟨2, _⟩ => ⟨S1x1x64x128x64, .f32⟩
  | .local _ .vmem, ⟨3, _⟩ => ⟨S1x1x64x128x64, .f32⟩
  | .local _ .vmem, ⟨4, _⟩ => ⟨S1x1x64x128x64, .f32⟩
  | .local _ .vmem, ⟨5, _⟩ => ⟨S1x1x64x128x64, .f32⟩
  | .local _ .vmem, ⟨6, _⟩ => ⟨S1x1x64x128x128, .i32⟩
  | .local _ .vmem, ⟨7, _⟩ => ⟨S1x1x64x128x128, .i32⟩
  | .local _ .vmem, ⟨8, _⟩ => ⟨S1x1x64x128x64, .f32⟩
  | .local _ .vmem, ⟨9, _⟩ => ⟨S1x1x64x128x64, .f32⟩
  | _, _ => ⟨S4x8x128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 2], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg2.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x1x64x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x64x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x64x128x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x64x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x1x64x128x64_S1x1x64x128x64_0_0_0_0_0 : ∀ a, (![0, 0, 0, 0, 0] : Fin 5 → Nat) a + S1x1x64x128x64.size a ≤ S1x1x64x128x64.size a
  h_S1x1x64x128x64 : 0 < S1x1x64x128x64.numel
  shapeCasts_S1x1x64x128x64_S64x128x64 : S1x1x64x128x64.ShapeCasts S64x128x64
  bitsLt_bf16_f32 : FTy.bits .bf16 < FTy.bits .f32
  inb_S1x1x64x128x128_S1x1x64x128x128_0_0_0_0_0 : ∀ a, (![0, 0, 0, 0, 0] : Fin 5 → Nat) a + S1x1x64x128x128.size a ≤ S1x1x64x128x128.size a
  h_S1x1x64x128x128 : 0 < S1x1x64x128x128.numel
  shapeCasts_S1x1x64x128x128_S64x128x128 : S1x1x64x128x128.ShapeCasts S64x128x128
  reduces_S64x128x128_S64x128 : S64x128x128.Reduces [2] S64x128
  shapeCasts_S64x128_S64x128x1 : S64x128.ShapeCasts S64x128x1
  broadcasts_S64x128x1_S64x128x128 : S64x128x1.Broadcasts S64x128x128
  shapeCasts_S64x128x64_S1x1x64x128x64 : S64x128x64.ShapeCasts S1x1x64x128x64
  dot_S64x128x64_S64x128x64_S64x128x128_2_2_1_1_0_0_wf : DotDims.WF S64x128x64 S64x128x64 S64x128x128 [2] [2] [1] [1] [0] [0]
  dot_S64x128x128_S64x128x64_S64x128x64_2_1_1_2_0_0_wf : DotDims.WF S64x128x128 S64x128x64 S64x128x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x64x128x64.size a ≤ S4x8x128x128x64.size a
  hwx0_0 : ∀ i : grid0.Coords, EltTy.bits .f32 = 32 ∨ (Rect.block (s := S4x8x128x128x64) S1x1x64x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x128x64.size a ≤ S4x8x128x128x64.size a
  hwx0_1 : ∀ i : grid0.Coords, EltTy.bits .f32 = 32 ∨ (Rect.block (s := S4x8x128x128x64) S1x1x64x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64x128x64.size a ≤ S4x8x128x128x64.size a
  hwx0_2 : ∀ i : grid0.Coords, EltTy.bits .f32 = 32 ∨ (Rect.block (s := S4x8x128x128x64) S1x1x64x128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64x128x128.size a ≤ S4x1x128x128x128.size a
  hwx0_3 : ∀ i : grid0.Coords, EltTy.bits .i32 = 32 ∨ (Rect.block (s := S4x1x128x128x128) S1x1x64x128x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64x128x64.size a ≤ S4x8x128x128x64.size a
  hwx0_4 : ∀ i : grid0.Coords, EltTy.bits .f32 = 32 ∨ (Rect.block (s := S4x8x128x128x64) S1x1x64x128x64.size (cc0_transform_4 i) (hinb0_4 i)).WholeWords (EltTy.packing .f32)

variable [Facts₀]

def dot_S64x128x64_S64x128x64_S64x128x128_2_2_1_1_0_0 : DotDims S64x128x64 S64x128x64 S64x128x128 where
  lhsContracting := [2]
  rhsContracting := [2]
  lhsNonContracting := [1]
  rhsNonContracting := [1]
  lhsBatch := [0]
  rhsBatch := [0]
  wf := dot_S64x128x64_S64x128x64_S64x128x128_2_2_1_1_0_0_wf
def dot_S64x128x128_S64x128x64_S64x128x64_2_1_1_2_0_0 : DotDims S64x128x128 S64x128x64 S64x128x64 where
  lhsContracting := [2]
  rhsContracting := [1]
  lhsNonContracting := [1]
  rhsNonContracting := [2]
  lhsBatch := [0]
  rhsBatch := [0]
  wf := dot_S64x128x128_S64x128x64_S64x128x64_2_1_1_2_0_0_wf

abbrev win0_0 : Pipeline.Window sig grid0 :=
  Pipeline.Window.ofSpec (Memref.whole main_arg0) S1x1x64x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x64x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x64x128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x64x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x64x128x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8x128x128x64 : Shape := ⟨5, ![4, 8, 128, 128, 64]⟩
abbrev S4x1x128x128x128 : Shape := ⟨5, ![4, 1, 128, 128, 128]⟩
abbrev S4x8x128x128x128 : Shape := ⟨5, ![4, 8, 128, 128, 128]⟩
abbrev S_ : Shape := ⟨0, ![]⟩
abbrev S4x8x128x128 : Shape := ⟨4, ![4, 8, 128, 128]⟩
abbrev S4x8x128x128x1 : Shape := ⟨5, ![4, 8, 128, 128, 1]⟩

abbrev nBuf : Space → Nat
  | .hbm => 30
  | .vmem => 0
  | .smem => 0
  | _ => 0

abbrev bufTy : (tb : Table) → Fin (tcTables nBuf tb) → BufTy
  | .hbm, ⟨0, _⟩ => ⟨S4x8x128x128x64, .f32⟩
  | .hbm, ⟨1, _⟩ => ⟨S4x8x128x128x64, .f32⟩
  | .hbm, ⟨2, _⟩ => ⟨S4x8x128x128x64, .f32⟩
  | .hbm, ⟨3, _⟩ => ⟨S4x1x128x128x128, .i32⟩
  | .hbm, ⟨4, _⟩ => ⟨S4x8x128x128x128, .f32⟩
  | .hbm, ⟨5, _⟩ => ⟨S_, .f32⟩
  | .hbm, ⟨6, _⟩ => ⟨S4x8x128x128x128, .f32⟩
  | .hbm, ⟨7, _⟩ => ⟨S4x8x128x128x128, .f32⟩
  | .hbm, ⟨8, _⟩ => ⟨S_, .i32⟩
  | .hbm, ⟨9, _⟩ => ⟨S4x1x128x128x128, .i32⟩
  | .hbm, ⟨10, _⟩ => ⟨S4x1x128x128x128, .i1⟩
  | .hbm, ⟨11, _⟩ => ⟨S_, .f32⟩
  | .hbm, ⟨12, _⟩ => ⟨S4x8x128x128x128, .i1⟩
  | .hbm, ⟨13, _⟩ => ⟨S4x8x128x128x128, .f32⟩
  | .hbm, ⟨14, _⟩ => ⟨S4x8x128x128x128, .f32⟩
  | .hbm, ⟨15, _⟩ => ⟨S_, .f32⟩
  | .hbm, ⟨16, _⟩ => ⟨S4x8x128x128, .f32⟩
  | .hbm, ⟨17, _⟩ => ⟨S_, .f32⟩
  | .hbm, ⟨18, _⟩ => ⟨S4x8x128x128, .f32⟩
  | .hbm, ⟨19, _⟩ => ⟨S4x8x128x128, .f32⟩
  | .hbm, ⟨20, _⟩ => ⟨S4x8x128x128x1, .f32⟩
  | .hbm, ⟨21, _⟩ => ⟨S4x8x128x128x128, .f32⟩
  | .hbm, ⟨22, _⟩ => ⟨S4x8x128x128x128, .f32⟩
  | .hbm, ⟨23, _⟩ => ⟨S4x8x128x128x128, .f32⟩
  | .hbm, ⟨24, _⟩ => ⟨S_, .f32⟩
  | .hbm, ⟨25, _⟩ => ⟨S4x8x128x128, .f32⟩
  | .hbm, ⟨26, _⟩ => ⟨S4x8x128x128x1, .f32⟩
  | .hbm, ⟨27, _⟩ => ⟨S4x8x128x128x128, .f32⟩
  | .hbm, ⟨28, _⟩ => ⟨S4x8x128x128x128, .f32⟩
  | .hbm, ⟨29, _⟩ => ⟨S4x8x128x128x64, .f32⟩
  | _, _ => ⟨S4x8x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S_S4x8x128x128x128 : S_.BroadcastsInDim S4x8x128x128x128 (![] : Fin 0 → Fin S4x8x128x128x128.rank)
  bcast_S_S4x1x128x128x128 : S_.BroadcastsInDim S4x1x128x128x128 (![] : Fin 0 → Fin S4x1x128x128x128.rank)
  bcast_S4x1x128x128x128_S4x8x128x128x128_0_1_2_3_4 : S4x1x128x128x128.BroadcastsInDim S4x8x128x128x128 (![0, 1, 2, 3, 4] : Fin 5 → Fin S4x8x128x128x128.rank)
  reducesTo_S4x8x128x128x128_S4x8x128x128_d4 : S4x8x128x128x128.ReducesTo [4] S4x8x128x128
  h_S_ : 0 < S_.numel
  bcast_S_S4x8x128x128 : S_.BroadcastsInDim S4x8x128x128 (![] : Fin 0 → Fin S4x8x128x128.rank)
  bcast_S4x8x128x128_S4x8x128x128x1_0_1_2_3 : S4x8x128x128.BroadcastsInDim S4x8x128x128x1 (![0, 1, 2, 3] : Fin 4 → Fin S4x8x128x128x1.rank)
  bcast_S4x8x128x128x1_S4x8x128x128x128_0_1_2_3_4 : S4x8x128x128x1.BroadcastsInDim S4x8x128x128x128 (![0, 1, 2, 3, 4] : Fin 5 → Fin S4x8x128x128x128.rank)
  dot_S4x8x128x128x64_S4x8x128x128x64_S4x8x128x128x128_4_4_3_3_012_012_wf : DotDims.WF S4x8x128x128x64 S4x8x128x128x64 S4x8x128x128x128 [4] [4] [3] [3] [0, 1, 2] [0, 1, 2]
  dot_S4x8x128x128x128_S4x8x128x128x64_S4x8x128x128x64_4_3_3_4_012_012_wf : DotDims.WF S4x8x128x128x128 S4x8x128x128x64 S4x8x128x128x64 [4] [3] [3] [4] [0, 1, 2] [0, 1, 2]

variable [Facts₀]

def dot_S4x8x128x128x64_S4x8x128x128x64_S4x8x128x128x128_4_4_3_3_012_012 : DotDims S4x8x128x128x64 S4x8x128x128x64 S4x8x128x128x128 where
  lhsContracting := [4]
  rhsContracting := [4]
  lhsNonContracting := [3]
  rhsNonContracting := [3]
  lhsBatch := [0, 1, 2]
  rhsBatch := [0, 1, 2]
  wf := dot_S4x8x128x128x64_S4x8x128x128x64_S4x8x128x128x128_4_4_3_3_012_012_wf
def dot_S4x8x128x128x128_S4x8x128x128x64_S4x8x128x128x64_4_3_3_4_012_012 : DotDims S4x8x128x128x128 S4x8x128x128x64 S4x8x128x128x64 where
  lhsContracting := [4]
  rhsContracting := [3]
  lhsNonContracting := [3]
  rhsNonContracting := [4]
  lhsBatch := [0, 1, 2]
  rhsBatch := [0, 1, 2]
  wf := dot_S4x8x128x128x128_S4x8x128x128x64_S4x8x128x128x64_4_3_3_4_012_012_wf

class Facts : Prop extends Facts₀ where

variable [Facts]
-- ==== Proof.Attention.lean ====
/-
  Scaled, masked softmax attention over the extended reals, as ONE function of its argument arrays.

  One attention problem has 128 query rows and 128 key rows of 64 features each (Q, K, V : 128 × 64) and a 128 × 128 table of
  integer mask words M. Its result at query row q and feature d is

      out q d = ∑ k, softmax (w q) k · V k d,      w q k = if M q k = 0 then −2¹⁵ else (∑ d, Q q d · K k d) · ⅛,

  where for a row w of 128 scores
      rowMax w    = max(−∞, the maximum of w from −∞),
      weight w k  = exp (w k − rowMax w),
      softmax w k = weight w k / ∑ k', weight w k'.

  The arrays hold 4 × 8 × 128 such problems, one per (batch b, head h, edge n); the mask has no head axis: every head of
  batch b reads the same table. ⟦attention⟧ below is that whole-array function, index by index.

  The one law the two programs need: a product with the word of ⅛ is the quotient by the word of 8, on EVERY extended real
  (no finiteness: x · ⅛ and x / 8 agree at ±∞ too).
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-- −∞ as the f32 word both maxima start from. -/
abbrev negInf : EReal := Ideal.ofBits .f32 0xFF800000#32
/-- −2¹⁵, the score a masked-out key gets. -/
abbrev masked : EReal := Ideal.ofBits .f32 0xC7000000#32
/-- ⅛ as an f32 word: one over the square root of the feature count 64. -/
abbrev eighth : EReal := Ideal.ofBits .f32 0x3E000000#32
/-- 8 as an f32 word. -/
abbrev eight : EReal := Ideal.ofBits .f32 0x41000000#32

/-- The word of 8 denotes the real 8. -/
theorem eight_eq : eight = ((8 : ℝ) : EReal) := by
  simp [eight, Ideal.ofBits, Ideal.ieee, -EReal.coe_mul]; norm_num

/-- The word of ⅛ denotes the real 1/8. -/
theorem eighth_eq : eighth = ((1 / 8 : ℝ) : EReal) := by
  simp [eighth, Ideal.ofBits, Ideal.ieee, -EReal.coe_mul]; norm_num

/-- THE LAW: dividing by 8 is multiplying by ⅛, on every extended real. -/
theorem div_eight (x : EReal) : Ideal.div x eight = x * eighth := by
  rw [eight_eq, eighth_eq, Ideal.div_coe (by norm_num : (8 : ℝ) ≠ 0)]

/-- The score of key k for query q: the scaled inner product of their feature rows, or −2¹⁵ where the mask word is 0. -/
def score (Q K : Fin 128 → Fin 64 → EReal) (M : Fin 128 → Fin 128 → BitVec 32) (q k : Fin 128) : EReal :=
  Scalar.select (IntOp.cmpi .eq (M q k) 0#32) masked ((∑ d : Fin 64, Q q d * K k d) * eighth)

/-- The maximum of a row of scores, taken from −∞ (twice: the reduction starts there, and its result is compared with −∞ again). -/
def rowMax (w : Fin 128 → EReal) : EReal :=
  max negInf ((Finset.univ : Finset (Fin 128)).fold max negInf w)

/-- The unnormalised weight of key k. -/
def weight (w : Fin 128 → EReal) (k : Fin 128) : EReal := Ideal.exp (w k - rowMax w)

/-- The softmax of a row of scores. -/
def softmax (w : Fin 128 → EReal) (k : Fin 128) : EReal := Ideal.div (weight w k) (∑ k' : Fin 128, weight w k')

/-- One attention problem: the softmax-weighted sum of the value rows. -/
def attend (Q K V : Fin 128 → Fin 64 → EReal) (M : Fin 128 → Fin 128 → BitVec 32) (q : Fin 128) (d : Fin 64) : EReal :=
  ∑ k : Fin 128, softmax (score Q K M q) k * V k d

/-- The whole arrays: entry (b, h, n, q, d) of the result is problem (b, h, n)'s attention at (q, d); the mask is read at head 0. -/
def attention (qs ks vs : (⟨5, ![4, 8, 128, 128, 64]⟩ : Shape).Idx → EReal) (mask : (⟨5, ![4, 1, 128, 128, 128]⟩ : Shape).Idx → BitVec 32)
    (i : (⟨5, ![4, 8, 128, 128, 64]⟩ : Shape).Idx) : EReal :=
  attend (fun a d => qs (ix5 (i 0 : Fin 4) (i 1 : Fin 8) (i 2 : Fin 128) a d)) (fun a d => ks (ix5 (i 0 : Fin 4) (i 1 : Fin 8) (i 2 : Fin 128) a d))
    (fun a d => vs (ix5 (i 0 : Fin 4) (i 1 : Fin 8) (i 2 : Fin 128) a d))
    (fun a c => mask (ix5 (i 0 : Fin 4) (0 : Fin 1) (i 2 : Fin 128) a c)) (i 3 : Fin 128) (i 4 : Fin 64)

/-- Problem (b, h, n)'s 128 × 64 rows of a q / k / v array. -/
def rows (x : (⟨5, ![4, 8, 128, 128, 64]⟩ : Shape).Idx → EReal) (b : Fin 4) (h : Fin 8) (n : Fin 128) : Fin 128 → Fin 64 → EReal :=
  fun a d => x (ix5 b h n a d)

/-- Batch b, edge n's 128 × 128 table of mask words (the mask's head axis has extent one). -/
def maskRows (mask : (⟨5, ![4, 1, 128, 128, 128]⟩ : Shape).Idx → BitVec 32) (b : Fin 4) (n : Fin 128) : Fin 128 → Fin 128 → BitVec 32 :=
  fun a c => mask (ix5 b (0 : Fin 1) n a c)

/-- The whole-array function at coordinates: problem (b, h, n)'s attention at (q, d). -/
theorem attention_ix5 (qs ks vs : (⟨5, ![4, 8, 128, 128, 64]⟩ : Shape).Idx → EReal) (mask : (⟨5, ![4, 1, 128, 128, 128]⟩ : Shape).Idx → BitVec 32)
    (b : Fin 4) (h : Fin 8) (n q : Fin 128) (d : Fin 64) :
    attention qs ks vs mask (ix5 b h n q d) = attend (rows qs b h n) (rows ks b h n) (rows vs b h n) (maskRows mask b n) q d := rfl

end Cert.Attention

end
-- ==== Proof.ReferenceAttention.lean ====
/-
  The reference's result is the attention function of its arguments, index by index.

  The reference computes, on whole arrays: the batched inner products of q's and k's feature rows, divided by 8; −2¹⁵ where the
  mask word (broadcast over the heads) is 0; each score row's maximum from −∞, compared with −∞ once more; the exponentials of
  the scores less that maximum; their row sums from 0; the quotients; and the batched product with v. Read at coordinates
  (b, h, n, q, k) each stage is the matching stage of problem (b, h, n): score, rowMax, weight, softmax, attend. The division
  by 8 becomes the product with ⅛ by the one law of the specification.
-/
import proofs.«124734_j49220325212255_1_alg».proof.Proof.Attention
import proofs.«124734_j49220325212255_1_alg».proof.Proof.Gen.ReferenceIdeal.Read
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.Attention

variable (x0 x1 x2 : (⟨S4x8x128x128x64, .f32⟩ : BufTy).Contents (Elt Ideal)) (x3 : (⟨S4x1x128x128x128, .i32⟩ : BufTy).Contents (Elt Ideal))

/-- The selected, scaled inner product at (b, h, n, q, k) is problem (b, h, n)'s score of key k for query q. -/
theorem score_at (b : Fin 4) (h : Fin 8) (n q k : Fin 128) :
    val_main_v5 (F := Ideal) x0 x1 x3 (ix5 b h n q k) = score (rows x0 b h n) (rows x1 b h n) (maskRows x3 b n) q k := by
  have e0 : idx_main_call0_v0 (ix5 b h n q k) = ix5 b (0 : Fin 1) n q k := funext fun a => Fin.ext (by
    match a with | ⟨0, _⟩ => rfl | ⟨1, _⟩ => rfl | ⟨2, _⟩ => rfl | ⟨3, _⟩ => rfl | ⟨4, _⟩ => rfl)
  have el : ∀ dd : Fin 64, lidx_main_v0 (ix5 b h n q k) dd = ix5 b h n q dd := fun dd => funext fun a => Fin.ext (by
    match a with | ⟨0, _⟩ => rfl | ⟨1, _⟩ => rfl | ⟨2, _⟩ => rfl | ⟨3, _⟩ => rfl | ⟨4, _⟩ => rfl)
  have er : ∀ dd : Fin 64, ridx_main_v0 (ix5 b h n q k) dd = ix5 b h n k dd := fun dd => funext fun a => Fin.ext (by
    match a with | ⟨0, _⟩ => rfl | ⟨1, _⟩ => rfl | ⟨2, _⟩ => rfl | ⟨3, _⟩ => rfl | ⟨4, _⟩ => rfl)
  rw [val_main_v5_apply, val_main_call0_v0_apply, val_main_v4_apply, val_main_v3_apply, val_main_c_apply, val_main_call0_v1_apply,
    val_main_cst_0_apply, val_main_v2_apply, val_main_v0_apply, val_main_v1_apply, val_main_cst_apply, e0]
  simp only [el, er, Ideal.hostDivf_def, Ideal.ofBits_def, div_eight]
  rfl

/-- The row maximum at (b, h, n, q): the reduce over the key axis from −∞, then the maximum with −∞. -/
theorem rowMax_at (b : Fin 4) (h : Fin 8) (n q : Fin 128) :
    val_main_v8 (F := Ideal) x0 x1 x3 (ix4 b h n q) = rowMax (score (rows x0 b h n) (rows x1 b h n) (maskRows x3 b n) q) := by
  have hr : S4x8x128x128x128.Reduces [4] S4x8x128x128 := by decide
  have hf : (val_main_v5 (F := Ideal) x0 x1 x3 ∘ hr.lift (ix4 b h n q))
      = score (rows x0 b h n) (rows x1 b h n) (maskRows x3 b n) q := funext fun k => by
    have ek : hr.lift (ix4 b h n q) k = ix5 b h n q (⟨k.val, k.isLt⟩ : Fin 128) := funext fun a => Fin.ext (by
      match a with | ⟨0, _⟩ => rfl | ⟨1, _⟩ => rfl | ⟨2, _⟩ => rfl | ⟨3, _⟩ => rfl | ⟨4, _⟩ => rfl)
    show val_main_v5 (F := Ideal) x0 x1 x3 (hr.lift (ix4 b h n q) k) = _
    rw [ek]
    exact score_at x0 x1 x3 b h n q _
  rw [val_main_v8_apply, val_main_v7_apply, val_main_cst_2_apply]
  unfold val_main_v6
  rw [Host.reduce_eq_fold_single FloatOps.maximumf _ _ reducesTo_S4x8x128x128x128_S4x8x128x128_d4 hr h_S_, hf]
  rfl

/-- The exponential of a score less its row's maximum is that key's weight. -/
theorem weight_at (b : Fin 4) (h : Fin 8) (n q k : Fin 128) :
    val_main_v12 (F := Ideal) x0 x1 x3 (ix5 b h n q k) = weight (score (rows x0 b h n) (rows x1 b h n) (maskRows x3 b n) q) k := by
  have e : idx_main_v9 (idx_main_v10 (ix5 b h n q k)) = ix4 b h n q := funext fun a => Fin.ext (by
    match a with | ⟨0, _⟩ => rfl | ⟨1, _⟩ => rfl | ⟨2, _⟩ => rfl | ⟨3, _⟩ => rfl)
  rw [val_main_v12_apply, val_main_v11_apply, val_main_v10_apply, val_main_v9_apply, e, rowMax_at, score_at]
  rfl

/-- The weight over the row's sum of weights (taken from 0) is the softmax. -/
theorem softmax_at (b : Fin 4) (h : Fin 8) (n q k : Fin 128) :
    val_main_v16 (F := Ideal) x0 x1 x3 (ix5 b h n q k) = softmax (score (rows x0 b h n) (rows x1 b h n) (maskRows x3 b n) q) k := by
  have e : idx_main_v14 (idx_main_v15 (ix5 b h n q k)) = ix4 b h n q := funext fun a => Fin.ext (by
    match a with | ⟨0, _⟩ => rfl | ⟨1, _⟩ => rfl | ⟨2, _⟩ => rfl | ⟨3, _⟩ => rfl)
  have es : ∀ k' : Fin 128, idx_main_v13 (ix4 b h n q) k' = ix5 b h n q k' := fun k' => funext fun a => Fin.ext (by
    match a with | ⟨0, _⟩ => rfl | ⟨1, _⟩ => rfl | ⟨2, _⟩ => rfl | ⟨3, _⟩ => rfl | ⟨4, _⟩ => rfl)
  rw [val_main_v16_apply, val_main_v15_apply, val_main_v14_apply, e, val_main_v13_apply, val_main_cst_3_apply, weight_at]
  simp only [es, weight_at, Ideal.ofBits_def, Ideal.ofBits_zero_f32, zero_add, Ideal.hostDivf_def]
  rfl

/-- THE REFERENCE IS THE ATTENTION FUNCTION: the product of the softmax rows with v, entry by entry. -/
theorem reference_eq : val_main_v17 (F := Ideal) x0 x1 x2 x3 = attention x0 x1 x2 x3 := by
  funext i
  obtain ⟨b, h, n, q, d, rfl⟩ : ∃ (b : Fin 4) (h : Fin 8) (n q : Fin 128) (d : Fin 64), i = ix5 b h n q d :=
    ⟨i 0, i 1, i 2, i 3, i 4, eq_ix5 i⟩
  have el : ∀ k : Fin 128, lidx_main_v17 (ix5 b h n q d) k = ix5 b h n q k := fun k => funext fun a => Fin.ext (by
    match a with | ⟨0, _⟩ => rfl | ⟨1, _⟩ => rfl | ⟨2, _⟩ => rfl | ⟨3, _⟩ => rfl | ⟨4, _⟩ => rfl)
  have er : ∀ k : Fin 128, ridx_main_v17 (ix5 b h n q d) k = ix5 b h n k d := fun k => funext fun a => Fin.ext (by
    match a with | ⟨0, _⟩ => rfl | ⟨1, _⟩ => rfl | ⟨2, _⟩ => rfl | ⟨3, _⟩ => rfl | ⟨4, _⟩ => rfl)
  rw [val_main_v17_apply, attention_ix5]
  simp only [el, er, softmax_at]
  rfl

end Cert.ReferenceIdeal.RefValue

end
-- ==== Proof.BlockOps.lean ====
/-
  The body's non-pointwise operations, each read at coordinates.

  A grid point's block holds 64 attention problems: q, k, v blocks of shape [1, 1, 64, 128, 64], a mask block [1, 1, 64, 128, 128].
  The body drops the two leading unit axes, so entry (n, a, d) of the working array is entry (0, 0, n, a, d) of the block, and
  puts them back when it stores. Its two matrix products are batched over the problem axis n: the scores contract the
  feature axis of both operands (entry (n, q, k) sums Q (n, q, ·) · K (n, k, ·)); the output contracts the key axis
  (entry (n, q, d) sums P (n, q, ·) · V (n, ·, d)); into a zero accumulator each is just that sum. A row reduction over
  the key axis, kept as a column [64, 128, 1] and broadcast back along the keys, reads at (n, q, k) the reduction at (n, q):
  for the maximum, the fold of max from −∞ over the row; for the sum, the row's sum.
-/
import proofs.«124734_j49220325212255_1_alg».proof.Proof.Attention
import proofs.«124734_j49220325212255_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.Attention

/-! ## The unit axes of a block -/

/-- A [1, 1, 64, 128, 64] block viewed as [64, 128, 64]: entry (n, a, d) is the block's (0, 0, n, a, d). -/
theorem cast_block64 {α : Type} (x : S1x1x64x128x64.Idx → α) (h : S1x1x64x128x64.ShapeCasts S64x128x64) (n : Fin 64) (a : Fin 128) (d : Fin 64) :
    shapeCast S64x128x64 x h (ix3 n a d) = x (ix5 (0 : Fin 1) (0 : Fin 1) n a d) := by
  refine shapeCast_apply x h (ix3 n a d) (ix5 (0 : Fin 1) (0 : Fin 1) n a d) ?_
  rw [Shape.rowMajor_val_five, Shape.rowMajor_val_three]
  show ((((0 : Nat) * 1 + 0) * 64 + n.val) * 128 + a.val) * 64 + d.val = (n.val * 128 + a.val) * 64 + d.val
  omega

/-- A [1, 1, 64, 128, 128] block viewed as [64, 128, 128]: entry (n, a, c) is the block's (0, 0, n, a, c). -/
theorem cast_block128 {α : Type} (x : S1x1x64x128x128.Idx → α) (h : S1x1x64x128x128.ShapeCasts S64x128x128) (n : Fin 64) (a c : Fin 128) :
    shapeCast S64x128x128 x h (ix3 n a c) = x (ix5 (0 : Fin 1) (0 : Fin 1) n a c) := by
  refine shapeCast_apply x h (ix3 n a c) (ix5 (0 : Fin 1) (0 : Fin 1) n a c) ?_
  rw [Shape.rowMajor_val_five, Shape.rowMajor_val_three]
  show ((((0 : Nat) * 1 + 0) * 64 + n.val) * 128 + a.val) * 128 + c.val = (n.val * 128 + a.val) * 128 + c.val
  omega

/-- A [64, 128, 64] result stored as a [1, 1, 64, 128, 64] block: the block's (u₀, u₁, n, a, d) is the result's (n, a, d). -/
theorem cast_store {α : Type} (v : S64x128x64.Idx → α) (h : S64x128x64.ShapeCasts S1x1x64x128x64) (u0 u1 : Fin 1) (n : Fin 64) (a : Fin 128) (d : Fin 64) :
    shapeCast S1x1x64x128x64 v h (ix5 u0 u1 n a d) = v (ix3 n a d) := by
  refine shapeCast_apply v h (ix5 u0 u1 n a d) (ix3 n a d) ?_
  rw [Shape.rowMajor_val_five, Shape.rowMajor_val_three]
  show (n.val * 128 + a.val) * 64 + d.val = ((((u0.val * 1 + u1.val) * 64 + n.val) * 128 + a.val) * 64 + d.val)
  have := u0.isLt; have := u1.isLt
  omega

/-! ## A row's reduction, kept as a column and broadcast back along the keys -/

/-- A [64, 128] array cast to the column [64, 128, 1] and broadcast to [64, 128, 128], read at (n, q, k), is the array at (n, q). -/
theorem column_broadcast {α : Type} (v : S64x128.Idx → α) (h1 : S64x128.ShapeCasts S64x128x1) (h2 : S64x128x1.Broadcasts S64x128x128)
    (n : Fin 64) (q k : Fin 128) :
    broadcastTo S64x128x128 (shapeCast S64x128x1 v h1) h2 (ix3 n q k) = v (ix2 n q) := by
  refine (broadcastTo_apply _ h2 (ix3 n q k) (ix3 n q (0 : Fin 1)) (fun a => ?_)).trans ?_
  · match a with
    | ⟨0, _⟩ => show n.val = if (64 : Nat) = 1 then 0 else n.val; rw [if_neg (by decide)]
    | ⟨1, _⟩ => show q.val = if (128 : Nat) = 1 then 0 else q.val; rw [if_neg (by decide)]
    | ⟨2, _⟩ => show (0 : Nat) = if (1 : Nat) = 1 then 0 else k.val; rw [if_pos rfl]
  · refine shapeCast_apply v h1 (ix3 n q (0 : Fin 1)) (ix2 n q) ?_
    rw [Shape.rowMajor_val_two, Shape.rowMajor_val_three]
    show n.val * 128 + q.val = (n.val * 128 + q.val) * 1 + 0
    omega

/-- The maximum over the key axis from −∞, at (n, q): the fold of max over the row's 128 scores. -/
theorem row_maximum (v : FVec Ideal S64x128x128 .f32) (h : S64x128x128.Reduces [2] S64x128) (hφ : FKind.Formats .f32)
    (hacc : (0xFF800000#32 : BitVec 32) = 0xFF800000#32) (n : Fin 64) (q : Fin 128) :
    multiReduction .maximumf [2] S64x128 v 0xFF800000#32 h hφ hacc (ix2 n q)
      = (Finset.univ : Finset (Fin 128)).fold max negInf (fun k => v (ix3 n q k)) := by
  refine (Ideal.multiReduction_maximumf_single v 0xFF800000#32 h hφ hacc (ix2 n q)).trans ?_
  have hf : (v ∘ h.lift (ix2 n q)) = fun k : Fin 128 => v (ix3 n q k) := funext fun k => congrArg v (funext fun a => Fin.ext (by
    match a with | ⟨0, _⟩ => rfl | ⟨1, _⟩ => rfl | ⟨2, _⟩ => rfl))
  exact congrArg (fun f => Finset.fold max negInf f (Finset.univ : Finset (Fin 128))) hf

/-- The sum over the key axis, at (n, q): the row's sum. -/
theorem row_sum (v : FVec Ideal S64x128x128 .f32) (h : S64x128x128.Reduces [2] S64x128) (hφ : FKind.Formats .f32)
    (hacc : (0x00000000#32 : BitVec 32) = 0x00000000#32) (n : Fin 64) (q : Fin 128) :
    multiReduction .add [2] S64x128 v 0x00000000#32 h hφ hacc (ix2 n q) = ∑ k : Fin 128, v (ix3 n q k) := by
  refine (Ideal.multiReduction_add_single v 0x00000000#32 h hφ hacc (ix2 n q)).trans ?_
  exact Finset.sum_congr rfl fun k _ => congrArg v (funext fun a => Fin.ext (by
    match a with | ⟨0, _⟩ => rfl | ⟨1, _⟩ => rfl | ⟨2, _⟩ => rfl))

/-! ## The two batched matrix products -/

theorem scores_lhs0 (i : S64x128x128.Idx) (c : dot_S64x128x64_S64x128x64_S64x128x128_2_2_1_1_0_0.contr.Idx) : (dot_S64x128x64_S64x128x64_S64x128x128_2_2_1_1_0_0.lhsIdx i c 0).val = (i 0).val := by
  unfold DotDims.lhsIdx
  rw [dif_pos (show (0 : Fin S64x128x64.rank) ∈ dot_S64x128x64_S64x128x64_S64x128x128_2_2_1_1_0_0.lhsBatch by decide)]
  rfl
theorem scores_lhs1 (i : S64x128x128.Idx) (c : dot_S64x128x64_S64x128x64_S64x128x128_2_2_1_1_0_0.contr.Idx) : (dot_S64x128x64_S64x128x64_S64x128x128_2_2_1_1_0_0.lhsIdx i c 1).val = (i 1).val := by
  unfold DotDims.lhsIdx
  rw [dif_neg (show ¬(1 : Fin S64x128x64.rank) ∈ dot_S64x128x64_S64x128x64_S64x128x128_2_2_1_1_0_0.lhsBatch by decide), dif_pos (show (1 : Fin S64x128x64.rank) ∈ dot_S64x128x64_S64x128x64_S64x128x128_2_2_1_1_0_0.lhsNonContracting by decide)]
  rfl
theorem scores_lhs2 (i : S64x128x128.Idx) (c : dot_S64x128x64_S64x128x64_S64x128x128_2_2_1_1_0_0.contr.Idx) : (dot_S64x128x64_S64x128x64_S64x128x128_2_2_1_1_0_0.lhsIdx i c 2).val = (c ⟨0, by decide⟩).val :=
  dot_S64x128x64_S64x128x64_S64x128x128_2_2_1_1_0_0.lhsIdx_val_of_single rfl i c
theorem scores_rhs0 (i : S64x128x128.Idx) (c : dot_S64x128x64_S64x128x64_S64x128x128_2_2_1_1_0_0.contr.Idx) : (dot_S64x128x64_S64x128x64_S64x128x128_2_2_1_1_0_0.rhsIdx i c 0).val = (i 0).val := by
  unfold DotDims.rhsIdx
  rw [dif_pos (show (0 : Fin S64x128x64.rank) ∈ dot_S64x128x64_S64x128x64_S64x128x128_2_2_1_1_0_0.rhsBatch by decide)]
  rfl
theorem scores_rhs1 (i : S64x128x128.Idx) (c : dot_S64x128x64_S64x128x64_S64x128x128_2_2_1_1_0_0.contr.Idx) : (dot_S64x128x64_S64x128x64_S64x128x128_2_2_1_1_0_0.rhsIdx i c 1).val = (i 2).val := by
  unfold DotDims.rhsIdx
  rw [dif_neg (show ¬(1 : Fin S64x128x64.rank) ∈ dot_S64x128x64_S64x128x64_S64x128x128_2_2_1_1_0_0.rhsBatch by decide), dif_pos (show (1 : Fin S64x128x64.rank) ∈ dot_S64x128x64_S64x128x64_S64x128x128_2_2_1_1_0_0.rhsNonContracting by decide)]
  rfl
theorem scores_rhs2 (i : S64x128x128.Idx) (c : dot_S64x128x64_S64x128x64_S64x128x128_2_2_1_1_0_0.contr.Idx) : (dot_S64x128x64_S64x128x64_S64x128x128_2_2_1_1_0_0.rhsIdx i c 2).val = (c ⟨0, by decide⟩).val :=
  dot_S64x128x64_S64x128x64_S64x128x128_2_2_1_1_0_0.rhsIdx_val_of_single rfl i c

/-- The scores' product into a zero accumulator, at (n, q, k): the inner product of query row q and key row k of problem n. -/
theorem scores_matmul (a b : FVec Ideal S64x128x64 .bf16) (n : Fin 64) (q k : Fin 128) :
    matmul dot_S64x128x64_S64x128x64_S64x128x128_2_2_1_1_0_0 none a b (constant (F := Ideal) S64x128x128 .f32 0x00000000#32) (ix3 n q k)
      = ∑ dd : Fin 64, a (ix3 n q dd) * b (ix3 n k dd) := by
  refine (Ideal.matmul_constant_zero_apply dot_S64x128x64_S64x128x64_S64x128x128_2_2_1_1_0_0 none a b (ix3 n q k)).trans ?_
  rw [← Equiv.sum_comp (contrEquiv1 dot_S64x128x64_S64x128x64_S64x128x128_2_2_1_1_0_0 64 rfl rfl).symm]
  refine Finset.sum_congr rfl fun dd _ => ?_
  have hk := contrEquiv1_symm_val dot_S64x128x64_S64x128x64_S64x128x128_2_2_1_1_0_0 64 rfl rfl dd
  have el : dot_S64x128x64_S64x128x64_S64x128x128_2_2_1_1_0_0.lhsIdx (ix3 n q k) ((contrEquiv1 dot_S64x128x64_S64x128x64_S64x128x128_2_2_1_1_0_0 64 rfl rfl).symm dd) = ix3 n q dd := funext fun ax => Fin.ext (by
    match ax with
    | ⟨0, _⟩ => exact scores_lhs0 _ _
    | ⟨1, _⟩ => exact scores_lhs1 _ _
    | ⟨2, _⟩ => exact (scores_lhs2 _ _).trans hk)
  have er : dot_S64x128x64_S64x128x64_S64x128x128_2_2_1_1_0_0.rhsIdx (ix3 n q k) ((contrEquiv1 dot_S64x128x64_S64x128x64_S64x128x128_2_2_1_1_0_0 64 rfl rfl).symm dd) = ix3 n k dd := funext fun ax => Fin.ext (by
    match ax with
    | ⟨0, _⟩ => exact scores_rhs0 _ _
    | ⟨1, _⟩ => exact scores_rhs1 _ _
    | ⟨2, _⟩ => exact (scores_rhs2 _ _).trans hk)
  rw [el, er]

theorem out_lhs0 (i : S64x128x64.Idx) (c : dot_S64x128x128_S64x128x64_S64x128x64_2_1_1_2_0_0.contr.Idx) : (dot_S64x128x128_S64x128x64_S64x128x64_2_1_1_2_0_0.lhsIdx i c 0).val = (i 0).val := by
  unfold DotDims.lhsIdx
  rw [dif_pos (show (0 : Fin S64x128x128.rank) ∈ dot_S64x128x128_S64x128x64_S64x128x64_2_1_1_2_0_0.lhsBatch by decide)]
  rfl
theorem out_lhs1 (i : S64x128x64.Idx) (c : dot_S64x128x128_S64x128x64_S64x128x64_2_1_1_2_0_0.contr.Idx) : (dot_S64x128x128_S64x128x64_S64x128x64_2_1_1_2_0_0.lhsIdx i c 1).val = (i 1).val := by
  unfold DotDims.lhsIdx
  rw [dif_neg (show ¬(1 : Fin S64x128x128.rank) ∈ dot_S64x128x128_S64x128x64_S64x128x64_2_1_1_2_0_0.lhsBatch by decide), dif_pos (show (1 : Fin S64x128x128.rank) ∈ dot_S64x128x128_S64x128x64_S64x128x64_2_1_1_2_0_0.lhsNonContracting by decide)]
  rfl
theorem out_lhs2 (i : S64x128x64.Idx) (c : dot_S64x128x128_S64x128x64_S64x128x64_2_1_1_2_0_0.contr.Idx) : (dot_S64x128x128_S64x128x64_S64x128x64_2_1_1_2_0_0.lhsIdx i c 2).val = (c ⟨0, by decide⟩).val :=
  dot_S64x128x128_S64x128x64_S64x128x64_2_1_1_2_0_0.lhsIdx_val_of_single rfl i c
theorem out_rhs0 (i : S64x128x64.Idx) (c : dot_S64x128x128_S64x128x64_S64x128x64_2_1_1_2_0_0.contr.Idx) : (dot_S64x128x128_S64x128x64_S64x128x64_2_1_1_2_0_0.rhsIdx i c 0).val = (i 0).val := by
  unfold DotDims.rhsIdx
  rw [dif_pos (show (0 : Fin S64x128x64.rank) ∈ dot_S64x128x128_S64x128x64_S64x128x64_2_1_1_2_0_0.rhsBatch by decide)]
  rfl
theorem out_rhs1 (i : S64x128x64.Idx) (c : dot_S64x128x128_S64x128x64_S64x128x64_2_1_1_2_0_0.contr.Idx) : (dot_S64x128x128_S64x128x64_S64x128x64_2_1_1_2_0_0.rhsIdx i c 1).val = (c ⟨0, by decide⟩).val :=
  dot_S64x128x128_S64x128x64_S64x128x64_2_1_1_2_0_0.rhsIdx_val_of_single rfl i c
theorem out_rhs2 (i : S64x128x64.Idx) (c : dot_S64x128x128_S64x128x64_S64x128x64_2_1_1_2_0_0.contr.Idx) : (dot_S64x128x128_S64x128x64_S64x128x64_2_1_1_2_0_0.rhsIdx i c 2).val = (i 2).val := by
  unfold DotDims.rhsIdx
  rw [dif_neg (show ¬(2 : Fin S64x128x64.rank) ∈ dot_S64x128x128_S64x128x64_S64x128x64_2_1_1_2_0_0.rhsBatch by decide), dif_pos (show (2 : Fin S64x128x64.rank) ∈ dot_S64x128x128_S64x128x64_S64x128x64_2_1_1_2_0_0.rhsNonContracting by decide)]
  rfl

/-- The output's product into a zero accumulator, at (n, q, d): the sum over the keys of the weight of key k times value row k's feature d. -/
theorem out_matmul (p : FVec Ideal S64x128x128 .bf16) (vv : FVec Ideal S64x128x64 .bf16) (n : Fin 64) (q : Fin 128) (d : Fin 64) :
    matmul dot_S64x128x128_S64x128x64_S64x128x64_2_1_1_2_0_0 none p vv (constant (F := Ideal) S64x128x64 .f32 0x00000000#32) (ix3 n q d)
      = ∑ k : Fin 128, p (ix3 n q k) * vv (ix3 n k d) := by
  refine (Ideal.matmul_constant_zero_apply dot_S64x128x128_S64x128x64_S64x128x64_2_1_1_2_0_0 none p vv (ix3 n q d)).trans ?_
  rw [← Equiv.sum_comp (contrEquiv1 dot_S64x128x128_S64x128x64_S64x128x64_2_1_1_2_0_0 128 rfl rfl).symm]
  refine Finset.sum_congr rfl fun k _ => ?_
  have hk := contrEquiv1_symm_val dot_S64x128x128_S64x128x64_S64x128x64_2_1_1_2_0_0 128 rfl rfl k
  have el : dot_S64x128x128_S64x128x64_S64x128x64_2_1_1_2_0_0.lhsIdx (ix3 n q d) ((contrEquiv1 dot_S64x128x128_S64x128x64_S64x128x64_2_1_1_2_0_0 128 rfl rfl).symm k) = ix3 n q k := funext fun ax => Fin.ext (by
    match ax with
    | ⟨0, _⟩ => exact out_lhs0 _ _
    | ⟨1, _⟩ => exact out_lhs1 _ _
    | ⟨2, _⟩ => exact (out_lhs2 _ _).trans hk)
  have er : dot_S64x128x128_S64x128x64_S64x128x64_2_1_1_2_0_0.rhsIdx (ix3 n q d) ((contrEquiv1 dot_S64x128x128_S64x128x64_S64x128x64_2_1_1_2_0_0 128 rfl rfl).symm k) = ix3 n k d := funext fun ax => Fin.ext (by
    match ax with
    | ⟨0, _⟩ => exact out_rhs0 _ _
    | ⟨1, _⟩ => exact (out_rhs1 _ _).trans hk
    | ⟨2, _⟩ => exact out_rhs2 _ _)
  rw [el, er]

end Cert.KernelIdeal.Block

end
-- ==== Proof.BlockAttention.lean ====
/-
  What one grid point stores: the attention of the 64 problems in its blocks.

  The body's stored value, read at entry (u₀, u₁, n, q, d) of the output block, is problem n's attention at (q, d), the problem's
  rows being rows (0, 0, n, ·, ·) of the q, k, v and mask blocks: the narrowing to bf16 is the identity on the extended reals,
  the scores are the selected scaled inner products, their softmax is taken row by row, and the output is its product with v.
  The body's value is cut into its stages — the score array; a row's maximum; a row quantity as a column broadcast back along
  the keys; the weights; a row's sum; the softmax — and each stage is read at coordinates once.
-/
import proofs.«124734_j49220325212255_1_alg».proof.Proof.BlockOps

noncomputable section

namespace Cert.KernelIdeal.Block

open Cert.KernelIdeal Cert.KernelIdeal.Gen Idealize.ShloMosaic Idealize.ShloMosaic.ValueIdx Cert.Attention

/-- Problem n's 128 × 64 rows of a q / k / v block. -/
def blockRows (x : Vec Ideal S1x1x64x128x64 .f32) (n : Fin 64) : Fin 128 → Fin 64 → EReal :=
  fun a d => x (ix5 (0 : Fin 1) (0 : Fin 1) n a d)

/-- Problem n's 128 × 128 mask words of a mask block. -/
def blockMask (x : Vec Ideal S1x1x64x128x128 .i32) (n : Fin 64) : Fin 128 → Fin 128 → BitVec 32 :=
  fun a c => x (ix5 (0 : Fin 1) (0 : Fin 1) n a c)

/-! ## The stages of the body's value -/

/-- The score array of a point's 64 problems: the scaled batched product of the q and k blocks, −2¹⁵ where the mask word is 0. -/
def scoreV (x0 x1 : Vec Ideal S1x1x64x128x64 .f32) (x3 : Vec Ideal S1x1x64x128x128 .i32) : FVec Ideal S64x128x128 .f32 :=
  select (cmpi .eq (shapeCast S64x128x128 x3 shapeCasts_S1x1x64x128x128_S64x128x128) (broadcast S64x128x128 0#32))
    (broadcast S64x128x128 (Scalar.ofBits .f32 0xC7000000#32))
    (mulf (matmul dot_S64x128x64_S64x128x64_S64x128x128_2_2_1_1_0_0 none
        (truncf .bf16 (shapeCast S64x128x64 x0 shapeCasts_S1x1x64x128x64_S64x128x64) bitsLt_bf16_f32)
        (truncf .bf16 (shapeCast S64x128x64 x1 shapeCasts_S1x1x64x128x64_S64x128x64) bitsLt_bf16_f32)
        (constant S64x128x128 .f32 0x00000000#32))
      (broadcast S64x128x128 (Scalar.ofBits .f32 0x3E000000#32)))

/-- Each row's maximum: the reduction over the keys from −∞, then the maximum with −∞. -/
def rowMaxV (w : FVec Ideal S64x128x128 .f32) : FVec Ideal S64x128 .f32 :=
  maximumf (broadcast S64x128 (Scalar.ofBits .f32 0xFF800000#32))
    (multiReduction .maximumf [2] S64x128 w 0xFF800000#32 reduces_S64x128x128_S64x128 (.inl rfl) rfl)

/-- A per-row quantity as a column, broadcast back along the keys. -/
def columnV (r : FVec Ideal S64x128 .f32) : FVec Ideal S64x128x128 .f32 :=
  broadcastTo S64x128x128 (shapeCast S64x128x1 r shapeCasts_S64x128_S64x128x1) broadcasts_S64x128x1_S64x128x128

/-- The exponentials of the scores less their row's maximum. -/
def weightV (w : FVec Ideal S64x128x128 .f32) : FVec Ideal S64x128x128 .f32 := exp (subf w (columnV (rowMaxV w)))

/-- Each row's sum. -/
def rowSumV (e : FVec Ideal S64x128x128 .f32) : FVec Ideal S64x128 .f32 :=
  multiReduction .add [2] S64x128 e 0x00000000#32 reduces_S64x128x128_S64x128 (.inl rfl) rfl

/-- The weights over their row's sum. -/
def softmaxV (w : FVec Ideal S64x128x128 .f32) : FVec Ideal S64x128x128 .f32 := divf (weightV w) (columnV (rowSumV (weightV w)))

/-- The body's weights are the softmax stages of its score array, narrowed to bf16. -/
theorem pay3_eq (x0 x1 : Vec Ideal S1x1x64x128x64 .f32) (x3 : Vec Ideal S1x1x64x128x128 .i32) :
    k0_pay3 (F := Ideal) x0 x1 x3 = truncf .bf16 (softmaxV (scoreV x0 x1 x3)) bitsLt_bf16_f32 := rfl

/-! ## Each stage at coordinates -/

/-- A pointwise exponential read at an index. -/
theorem exp_at {s : Shape} (v : FVec Ideal s .f32) (i : s.Idx) : exp v i = Ideal.exp (v i) := rfl

/-- A pointwise integer comparison read at an index. -/
theorem cmpi_at {s : Shape} (p : CmpIPredicate) (x y : IVec s 32) (i : s.Idx) : cmpi p x y i = IntOp.cmpi p (x i) (y i) := rfl

/-- The score array at (n, q, k): problem n's score of key k for query q. -/
theorem scoreV_at (x0 x1 : Vec Ideal S1x1x64x128x64 .f32) (x3 : Vec Ideal S1x1x64x128x128 .i32) (n : Fin 64) (q k : Fin 128) :
    scoreV x0 x1 x3 (ix3 n q k) = score (blockRows x0 n) (blockRows x1 n) (blockMask x3 n) q k := by
  unfold scoreV
  simp only [select_apply, cmpi_at, mulf_apply, broadcast_apply, scores_matmul, truncf_apply, cast_block64, cast_block128]
  rfl

/-- The row maximum at (n, q). -/
theorem rowMaxV_at (w : FVec Ideal S64x128x128 .f32) (n : Fin 64) (q : Fin 128) :
    rowMaxV w (ix2 n q) = rowMax (fun k => w (ix3 n q k)) := by
  unfold rowMaxV
  rw [maximumf_apply, broadcast_apply]
  exact congrArg (max negInf) (row_maximum w reduces_S64x128x128_S64x128 (.inl rfl) rfl n q)

/-- The column broadcast at (n, q, k): the row quantity at (n, q). -/
theorem columnV_at (r : FVec Ideal S64x128 .f32) (n : Fin 64) (q k : Fin 128) : columnV r (ix3 n q k) = r (ix2 n q) :=
  column_broadcast r shapeCasts_S64x128_S64x128x1 broadcasts_S64x128x1_S64x128x128 n q k

/-- The weight at (n, q, k). -/
theorem weightV_at (w : FVec Ideal S64x128x128 .f32) (n : Fin 64) (q k : Fin 128) :
    weightV w (ix3 n q k) = weight (fun k' => w (ix3 n q k')) k := by
  unfold weightV
  rw [exp_at, subf_apply, columnV_at, rowMaxV_at]
  rfl

/-- The row sum at (n, q). -/
theorem rowSumV_at (e : FVec Ideal S64x128x128 .f32) (n : Fin 64) (q : Fin 128) : rowSumV e (ix2 n q) = ∑ k : Fin 128, e (ix3 n q k) :=
  row_sum e reduces_S64x128x128_S64x128 (.inl rfl) rfl n q

/-- The softmax at (n, q, k). -/
theorem softmaxV_at (w : FVec Ideal S64x128x128 .f32) (n : Fin 64) (q k : Fin 128) :
    softmaxV w (ix3 n q k) = softmax (fun k' => w (ix3 n q k')) k := by
  unfold softmaxV
  rw [divf_apply, columnV_at, rowSumV_at]
  simp only [weightV_at]
  rfl

/-- The weights the body feeds its second product, at (n, q, k): the softmax of problem n's score row q, at key k. -/
theorem probs_at (x0 x1 : Vec Ideal S1x1x64x128x64 .f32) (x3 : Vec Ideal S1x1x64x128x128 .i32) (n : Fin 64) (q k : Fin 128) :
    k0_pay3 (F := Ideal) x0 x1 x3 (ix3 n q k) = softmax (score (blockRows x0 n) (blockRows x1 n) (blockMask x3 n) q) k := by
  rw [pay3_eq, truncf_apply, softmaxV_at]
  exact congrArg (fun w => softmax w k) (funext fun k' => scoreV_at x0 x1 x3 n q k')

/-- THE STORED VALUE at (u₀, u₁, n, q, d): problem n's attention at (q, d). -/
theorem payload_at (x0 x1 x2 : Vec Ideal S1x1x64x128x64 .f32) (x3 : Vec Ideal S1x1x64x128x128 .i32) (u0 u1 : Fin 1) (n : Fin 64)
    (q : Fin 128) (d : Fin 64) :
    k0_pay1 (F := Ideal) (k0_pay2 x2) (k0_pay3 x0 x1 x3) (ix5 u0 u1 n q d)
      = attend (blockRows x0 n) (blockRows x1 n) (blockRows x2 n) (blockMask x3 n) q d := by
  unfold k0_pay1
  simp only [cast_store, out_matmul, probs_at]
  unfold k0_pay2
  simp only [truncf_apply, cast_block64]
  rfl

end Cert.KernelIdeal.Block

end
-- ==== Proof.BlocksToArray.lean ====
/-
  From the points' blocks to the whole result array.

  The grid has 4 × 8 × 2 points (batch b, head h, half nt of the edges). Point (b, h, nt) reads rows (b, h, 64·nt + n, ·, ·),
  n < 64, of q, k and v, rows (b, 0, 64·nt + n, ·, ·) of the mask — the mask's block index ignores the head —, and writes the
  same rows of the result. So what a point writes back is its block of the attention function of the WHOLE argument arrays;
  the 64 blocks tile the result array (entry (b, h, r, ·, ·) lies in the block of point (b, h, r / 64)), and the array ends
  holding the attention function everywhere.
-/
import proofs.«124734_j49220325212255_1_alg».proof.Proof.BlockAttention
import proofs.«124734_j49220325212255_1_alg».proof.Proof.Gen.KernelIdeal.Value

noncomputable section

namespace Cert.KernelIdeal.KValue

open Cert.KernelIdeal Cert.KernelIdeal.Gen Idealize.ShloMosaic Idealize.ShloMosaic.TcCoe Idealize.SL.Sem
open Idealize.ShloMosaic.ValueIdx Cert.Attention Cert.KernelIdeal.Block
open Idealize.ShloMosaic.Pipeline (Dat)

variable (m : (ℓ : Loc nD τ sig) → Buf (Elt Ideal) ℓ) (ρ : Dev nD → PrngReg)

theorem zero_offsets : (![0, 0, 0, 0, 0] : Fin 5 → Nat) = fun _ => 0 := funext fun a => by fin_cases a <;> rfl

/-- The printed index maps, decided over the 64 grid points: the q, k and v windows move with the output window on every
    axis; the mask window does on the batch and edge axes and stays at 0 on its unit head axis; the output's block indices
    range over 4 × 8 × 2 and are 0 on the two whole axes. -/
theorem index_facts : ∀ t : Fin cfg0.N, win0_0.index t (0 : Fin 5) = win0_4.index t (0 : Fin 5)
    ∧ win0_0.index t (1 : Fin 5) = win0_4.index t (1 : Fin 5)
    ∧ win0_0.index t (2 : Fin 5) = win0_4.index t (2 : Fin 5)
    ∧ win0_0.index t (3 : Fin 5) = win0_4.index t (3 : Fin 5)
    ∧ win0_0.index t (4 : Fin 5) = win0_4.index t (4 : Fin 5)
    ∧ win0_1.index t (0 : Fin 5) = win0_4.index t (0 : Fin 5)
    ∧ win0_1.index t (1 : Fin 5) = win0_4.index t (1 : Fin 5)
    ∧ win0_1.index t (2 : Fin 5) = win0_4.index t (2 : Fin 5)
    ∧ win0_1.index t (3 : Fin 5) = win0_4.index t (3 : Fin 5)
    ∧ win0_1.index t (4 : Fin 5) = win0_4.index t (4 : Fin 5)
    ∧ win0_2.index t (0 : Fin 5) = win0_4.index t (0 : Fin 5)
    ∧ win0_2.index t (1 : Fin 5) = win0_4.index t (1 : Fin 5)
    ∧ win0_2.index t (2 : Fin 5) = win0_4.index t (2 : Fin 5)
    ∧ win0_2.index t (3 : Fin 5) = win0_4.index t (3 : Fin 5)
    ∧ win0_2.index t (4 : Fin 5) = win0_4.index t (4 : Fin 5)
    ∧ win0_3.index t (0 : Fin 5) = win0_4.index t (0 : Fin 5)
    ∧ win0_3.index t (1 : Fin 5) = 0
    ∧ win0_3.index t (2 : Fin 5) = win0_4.index t (2 : Fin 5)
    ∧ win0_3.index t (3 : Fin 5) = 0
    ∧ win0_3.index t (4 : Fin 5) = 0
    ∧ win0_4.index t (0 : Fin 5) < 4
    ∧ win0_4.index t (1 : Fin 5) < 8
    ∧ win0_4.index t (2 : Fin 5) < 2
    ∧ win0_4.index t (3 : Fin 5) = 0
    ∧ win0_4.index t (4 : Fin 5) = 0 :=
  (by decide +kernel : ∀ t : Fin grid0.N, _)

/-- Every (batch, head, half) is some point's output block. -/
theorem index_onto : ∀ (b : Fin 4) (h : Fin 8) (nt : Fin 2), ∃ t : Fin cfg0.N, win0_4.index t = ![b.val, h.val, nt.val, 0, 0] :=
  (by decide +kernel : ∀ (b : Fin 4) (h : Fin 8) (nt : Fin 2), ∃ t : Fin grid0.N, win0_4.index t = ![b.val, h.val, nt.val, 0, 0])

/-! ## A point's input blocks, read off the argument arrays -/

/-- Entry y of point t's q block is the q array's entry at the output block's batch and head, edge 64·(block) + y₂, and y's row and feature. -/
theorem block_q (c : Dev nD) (t : Fin cfg0.N) (y : S1x1x64x128x64.Idx) (k : S4x8x128x128x64.Idx)
    (h0 : (k 0).val = win0_4.index t (0 : Fin 5) + (y 0).val) (h1 : (k 1).val = win0_4.index t (1 : Fin 5) + (y 1).val)
    (h2 : (k 2).val = win0_4.index t (2 : Fin 5) * 64 + (y 2).val) (h3 : (k 3).val = (y 3).val) (h4 : (k 4).val = (y 4).val) :
    (iblk m c 0 t : Vec Ideal S1x1x64x128x64 .f32) y = V m c main_arg0 k := by
  obtain ⟨e0, e1, e2, e3, e4, e5, e6, e7, e8, e9, e10, e11, e12, e13, e14, e15, e16, e17, e18, e19, e20, e21, e22, e23, e24⟩ := index_facts t
  show V m c main_arg0 (((cfg0.win 0).blk t).view.emb y) = V m c main_arg0 k
  refine congrArg _ (funext fun a => Fin.ext ?_)
  match a with
  | ⟨0, _⟩ => show win0_0.index t (0 : Fin 5) * 1 + 1 * (y 0).val = (k 0).val; omega
  | ⟨1, _⟩ => show win0_0.index t (1 : Fin 5) * 1 + 1 * (y 1).val = (k 1).val; omega
  | ⟨2, _⟩ => show win0_0.index t (2 : Fin 5) * 64 + 1 * (y 2).val = (k 2).val; omega
  | ⟨3, _⟩ => show win0_0.index t (3 : Fin 5) * 128 + 1 * (y 3).val = (k 3).val; omega
  | ⟨4, _⟩ => show win0_0.index t (4 : Fin 5) * 64 + 1 * (y 4).val = (k 4).val; omega

/-- The same for the k block. -/
theorem block_k (c : Dev nD) (t : Fin cfg0.N) (y : S1x1x64x128x64.Idx) (k : S4x8x128x128x64.Idx)
    (h0 : (k 0).val = win0_4.index t (0 : Fin 5) + (y 0).val) (h1 : (k 1).val = win0_4.index t (1 : Fin 5) + (y 1).val)
    (h2 : (k 2).val = win0_4.index t (2 : Fin 5) * 64 + (y 2).val) (h3 : (k 3).val = (y 3).val) (h4 : (k 4).val = (y 4).val) :
    (iblk m c 1 t : Vec Ideal S1x1x64x128x64 .f32) y = V m c main_arg1 k := by
  obtain ⟨e0, e1, e2, e3, e4, e5, e6, e7, e8, e9, e10, e11, e12, e13, e14, e15, e16, e17, e18, e19, e20, e21, e22, e23, e24⟩ := index_facts t
  show V m c main_arg1 (((cfg0.win 1).blk t).view.emb y) = V m c main_arg1 k
  refine congrArg _ (funext fun a => Fin.ext ?_)
  match a with
  | ⟨0, _⟩ => show win0_1.index t (0 : Fin 5) * 1 + 1 * (y 0).val = (k 0).val; omega
  | ⟨1, _⟩ => show win0_1.index t (1 : Fin 5) * 1 + 1 * (y 1).val = (k 1).val; omega
  | ⟨2, _⟩ => show win0_1.index t (2 : Fin 5) * 64 + 1 * (y 2).val = (k 2).val; omega
  | ⟨3, _⟩ => show win0_1.index t (3 : Fin 5) * 128 + 1 * (y 3).val = (k 3).val; omega
  | ⟨4, _⟩ => show win0_1.index t (4 : Fin 5) * 64 + 1 * (y 4).val = (k 4).val; omega

/-- The same for the v block. -/
theorem block_v (c : Dev nD) (t : Fin cfg0.N) (y : S1x1x64x128x64.Idx) (k : S4x8x128x128x64.Idx)
    (h0 : (k 0).val = win0_4.index t (0 : Fin 5) + (y 0).val) (h1 : (k 1).val = win0_4.index t (1 : Fin 5) + (y 1).val)
    (h2 : (k 2).val = win0_4.index t (2 : Fin 5) * 64 + (y 2).val) (h3 : (k 3).val = (y 3).val) (h4 : (k 4).val = (y 4).val) :
    (iblk m c 2 t : Vec Ideal S1x1x64x128x64 .f32) y = V m c main_arg2 k := by
  obtain ⟨e0, e1, e2, e3, e4, e5, e6, e7, e8, e9, e10, e11, e12, e13, e14, e15, e16, e17, e18, e19, e20, e21, e22, e23, e24⟩ := index_facts t
  show V m c main_arg2 (((cfg0.win 2).blk t).view.emb y) = V m c main_arg2 k
  refine congrArg _ (funext fun a => Fin.ext ?_)
  match a with
  | ⟨0, _⟩ => show win0_2.index t (0 : Fin 5) * 1 + 1 * (y 0).val = (k 0).val; omega
  | ⟨1, _⟩ => show win0_2.index t (1 : Fin 5) * 1 + 1 * (y 1).val = (k 1).val; omega
  | ⟨2, _⟩ => show win0_2.index t (2 : Fin 5) * 64 + 1 * (y 2).val = (k 2).val; omega
  | ⟨3, _⟩ => show win0_2.index t (3 : Fin 5) * 128 + 1 * (y 3).val = (k 3).val; omega
  | ⟨4, _⟩ => show win0_2.index t (4 : Fin 5) * 64 + 1 * (y 4).val = (k 4).val; omega

/-- Entry y of point t's mask block: the mask array at the output block's batch, head 0, edge 64·(block) + y₂, and y's row and key. -/
theorem block_mask (c : Dev nD) (t : Fin cfg0.N) (y : S1x1x64x128x128.Idx) (k : S4x1x128x128x128.Idx)
    (h0 : (k 0).val = win0_4.index t (0 : Fin 5) + (y 0).val) (h1 : (k 1).val = 0 + (y 1).val)
    (h2 : (k 2).val = win0_4.index t (2 : Fin 5) * 64 + (y 2).val) (h3 : (k 3).val = (y 3).val) (h4 : (k 4).val = (y 4).val) :
    (iblk m c 3 t : Vec Ideal S1x1x64x128x128 .i32) y = V m c main_arg3 k := by
  obtain ⟨e0, e1, e2, e3, e4, e5, e6, e7, e8, e9, e10, e11, e12, e13, e14, e15, e16, e17, e18, e19, e20, e21, e22, e23, e24⟩ := index_facts t
  show V m c main_arg3 (((cfg0.win 3).blk t).view.emb y) = V m c main_arg3 k
  refine congrArg _ (funext fun a => Fin.ext ?_)
  match a with
  | ⟨0, _⟩ => show win0_3.index t (0 : Fin 5) * 1 + 1 * (y 0).val = (k 0).val; omega
  | ⟨1, _⟩ => show win0_3.index t (1 : Fin 5) * 1 + 1 * (y 1).val = (k 1).val; omega
  | ⟨2, _⟩ => show win0_3.index t (2 : Fin 5) * 64 + 1 * (y 2).val = (k 2).val; omega
  | ⟨3, _⟩ => show win0_3.index t (3 : Fin 5) * 128 + 1 * (y 3).val = (k 3).val; omega
  | ⟨4, _⟩ => show win0_3.index t (4 : Fin 5) * 128 + 1 * (y 4).val = (k 4).val; omega

/-! ## What a point writes back -/

/-- Entry y of what point t stores is the attention function of the whole argument arrays at y's place in the result array. -/
theorem point_eq (c : Dev nD) (t : Fin cfg0.N) (y : S1x1x64x128x64.Idx) :
    k0_pay1 (F := Ideal) (k0_pay2 (iblk m c 2 t)) (k0_pay3 (iblk m c 0 t) (iblk m c 1 t) (iblk m c 3 t)) y
      = attention (V m c main_arg0) (V m c main_arg1) (V m c main_arg2) (V m c main_arg3) (((cfg0.win 4).blk t).view.emb y) := by
  obtain ⟨u0, u1, n, q, d, rfl⟩ : ∃ (u0 u1 : Fin 1) (n : Fin 64) (q : Fin 128) (d : Fin 64), y = ix5 u0 u1 n q d :=
    ⟨y 0, y 1, y 2, y 3, y 4, eq_ix5 y⟩
  obtain ⟨e0, e1, e2, e3, e4, e5, e6, e7, e8, e9, e10, e11, e12, e13, e14, e15, e16, e17, e18, e19, e20, e21, e22, e23, e24⟩ := index_facts t
  obtain ⟨b, hb⟩ : ∃ b : Fin 4, win0_4.index t (0 : Fin 5) = b.val := ⟨⟨_, e20⟩, rfl⟩
  obtain ⟨h, hh⟩ : ∃ h : Fin 8, win0_4.index t (1 : Fin 5) = h.val := ⟨⟨_, e21⟩, rfl⟩
  obtain ⟨nt, hnt⟩ : ∃ nt : Fin 2, win0_4.index t (2 : Fin 5) = nt.val := ⟨⟨_, e22⟩, rfl⟩
  have hu0 : u0.val = 0 := by have := u0.isLt; omega
  have hu1 : u1.val = 0 := by have := u1.isLt; omega
  have hr : nt.val * 64 + n.val < 128 := by have := nt.isLt; have := n.isLt; omega
  have hI : ((cfg0.win 4).blk t).view.emb (ix5 u0 u1 n q d) = ix5 b h (⟨nt.val * 64 + n.val, hr⟩ : Fin 128) q d :=
    funext fun a => Fin.ext (by
      match a with
      | ⟨0, _⟩ => show win0_4.index t (0 : Fin 5) * 1 + 1 * u0.val = b.val; omega
      | ⟨1, _⟩ => show win0_4.index t (1 : Fin 5) * 1 + 1 * u1.val = h.val; omega
      | ⟨2, _⟩ => show win0_4.index t (2 : Fin 5) * 64 + 1 * n.val = nt.val * 64 + n.val; omega
      | ⟨3, _⟩ => show win0_4.index t (3 : Fin 5) * 128 + 1 * q.val = q.val; omega
      | ⟨4, _⟩ => show win0_4.index t (4 : Fin 5) * 64 + 1 * d.val = d.val; omega)
  rw [hI, attention_ix5]
  refine (payload_at (iblk m c 0 t) (iblk m c 1 t) (iblk m c 2 t) (iblk m c 3 t) u0 u1 n q d).trans ?_
  have hQ : blockRows (iblk m c 0 t) n = rows (V m c main_arg0) b h (⟨nt.val * 64 + n.val, hr⟩ : Fin 128) :=
    funext fun a => funext fun dd => block_q m c t (ix5 (0 : Fin 1) (0 : Fin 1) n a dd) (ix5 b h (⟨nt.val * 64 + n.val, hr⟩ : Fin 128) a dd)
      (by show b.val = win0_4.index t (0 : Fin 5) + 0; omega) (by show h.val = win0_4.index t (1 : Fin 5) + 0; omega)
      (by show nt.val * 64 + n.val = win0_4.index t (2 : Fin 5) * 64 + n.val; omega) rfl rfl
  have hK : blockRows (iblk m c 1 t) n = rows (V m c main_arg1) b h (⟨nt.val * 64 + n.val, hr⟩ : Fin 128) :=
    funext fun a => funext fun dd => block_k m c t (ix5 (0 : Fin 1) (0 : Fin 1) n a dd) (ix5 b h (⟨nt.val * 64 + n.val, hr⟩ : Fin 128) a dd)
      (by show b.val = win0_4.index t (0 : Fin 5) + 0; omega) (by show h.val = win0_4.index t (1 : Fin 5) + 0; omega)
      (by show nt.val * 64 + n.val = win0_4.index t (2 : Fin 5) * 64 + n.val; omega) rfl rfl
  have hV : blockRows (iblk m c 2 t) n = rows (V m c main_arg2) b h (⟨nt.val * 64 + n.val, hr⟩ : Fin 128) :=
    funext fun a => funext fun dd => block_v m c t (ix5 (0 : Fin 1) (0 : Fin 1) n a dd) (ix5 b h (⟨nt.val * 64 + n.val, hr⟩ : Fin 128) a dd)
      (by show b.val = win0_4.index t (0 : Fin 5) + 0; omega) (by show h.val = win0_4.index t (1 : Fin 5) + 0; omega)
      (by show nt.val * 64 + n.val = win0_4.index t (2 : Fin 5) * 64 + n.val; omega) rfl rfl
  have hM : blockMask (iblk m c 3 t) n = maskRows (V m c main_arg3) b (⟨nt.val * 64 + n.val, hr⟩ : Fin 128) :=
    funext fun a => funext fun cc => block_mask m c t (ix5 (0 : Fin 1) (0 : Fin 1) n a cc) (ix5 b (0 : Fin 1) (⟨nt.val * 64 + n.val, hr⟩ : Fin 128) a cc)
      (by show b.val = win0_4.index t (0 : Fin 5) + 0; omega) (by show (0 : Nat) = 0 + 0; omega)
      (by show nt.val * 64 + n.val = win0_4.index t (2 : Fin 5) * 64 + n.val; omega) rfl rfl
  rw [hQ, hK, hV, hM]

/-- WHAT POINT t WRITES BACK is block t of the attention function of the argument arrays as the region finds them. -/
theorem flushed_eq (c : Dev nD) (t : Fin cfg0.N) :
    (dats m 0 c).flushed 4 t = ((cfg0.win 4).blk t).view.read (Elt Ideal)
      (attention (V m c main_arg0) (V m c main_arg1) (V m c main_arg2) (V m c main_arg3)) := by
  rw [Cert.KernelIdeal.Value.flushed4]
  unfold out0_4
  rw [View.canon_unit_zero zero_offsets]
  simp only [View.ld_unit_zero (S := S1x1x64x128x64) zero_offsets, View.ld_unit_zero (S := S1x1x64x128x128) zero_offsets]
  funext j
  exact point_eq m c t j

/-- Every entry of the result array lies in some point's block: entry (b, h, r, ·, ·) in the block of point (b, h, r / 64). -/
theorem covered (i : S4x8x128x128x64.Idx) : ∃ t : Fin cfg0.N, (cfg0.win 4).flush t = true ∧ i ∈ ((cfg0.win 4).blk t).view.set := by
  have h0 : (i 0).val < 4 := (i 0).isLt
  have h1 : (i 1).val < 8 := (i 1).isLt
  have h2 : (i 2).val < 128 := (i 2).isLt
  have h3 : (i 3).val < 128 := (i 3).isLt
  have h4 : (i 4).val < 64 := (i 4).isLt
  obtain ⟨t, ht⟩ := index_onto ⟨(i 0).val, h0⟩ ⟨(i 1).val, h1⟩ ⟨(i 2).val / 64, by omega⟩
  have q0 : win0_4.index t (0 : Fin 5) = (i 0).val := congrFun ht 0
  have q1 : win0_4.index t (1 : Fin 5) = (i 1).val := congrFun ht 1
  have q2 : win0_4.index t (2 : Fin 5) = (i 2).val / 64 := congrFun ht 2
  have q3 : win0_4.index t (3 : Fin 5) = 0 := congrFun ht 3
  have q4 : win0_4.index t (4 : Fin 5) = 0 := congrFun ht 4
  refine ⟨t, flush0_4 t, ?_⟩
  show i ∈ ((View.whole main_v0).slice (win0_4.rect t)).set
  rw [View.set_slice_whole, Rect.mem_set_unit]
  intro a
  match a with
  | ⟨0, _⟩ => show win0_4.index t (0 : Fin 5) * 1 ≤ (i 0).val ∧ (i 0).val < win0_4.index t (0 : Fin 5) * 1 + 1; omega
  | ⟨1, _⟩ => show win0_4.index t (1 : Fin 5) * 1 ≤ (i 1).val ∧ (i 1).val < win0_4.index t (1 : Fin 5) * 1 + 1; omega
  | ⟨2, _⟩ => show win0_4.index t (2 : Fin 5) * 64 ≤ (i 2).val ∧ (i 2).val < win0_4.index t (2 : Fin 5) * 64 + 64; omega
  | ⟨3, _⟩ => show win0_4.index t (3 : Fin 5) * 128 ≤ (i 3).val ∧ (i 3).val < win0_4.index t (3 : Fin 5) * 128 + 128; omega
  | ⟨4, _⟩ => show win0_4.index t (4 : Fin 5) * 64 ≤ (i 4).val ∧ (i 4).val < win0_4.index t (4 : Fin 5) * 64 + 64; omega

/-- THE RESULT ARRAY after the run is the attention function of the argument arrays. -/
theorem final (c : Dev nD) : (dats m 0 c).arrAt 4 cfg0.N
    = attention (V m c main_arg0) (V m c main_arg1) (V m c main_arg2) (V m c main_arg3) :=
  (dats m 0 c).arrAt_eq_of_cover 4 _ (fun t _ => flushed_eq m c t) covered

/-- THE KERNEL'S RUN, read: every weakly fair execution terminates with the result array at the attention function of the
    arguments' launch contents, the arguments unchanged. -/
theorem run : θ_run defs (onTc (τ := τ) (main (F := Ideal))) ⟨m, fun _ => 0, ρ⟩ fun r => ∀ c : Dev nD,
      r.2.mem ((c : Thread nD τ).loc main_v0)
        = attention (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.KValue

end
-- ==== Proof.lean ====
/-
  A Pallas attention kernel against its jnp reference, over the extended reals.

  Both programs compute, for each of 4 × 8 × 128 independent problems (batch, head, edge) with 128 queries, 128 keys and 64
  features,
      out = softmax (where (mask = 0) (−2¹⁵) (Q Kᵀ scaled)) V,
  the softmax taken along the keys with the row maximum (from −∞) subtracted, the mask shared by the heads of a batch.
  The kernel runs a 4 × 8 × 2 grid, 64 problems per point, narrows its matmul operands to bf16 (the identity on the extended
  reals) and scales the scores by the f32 word of ⅛; the reference divides them by the f32 word of 8. These agree on every
  extended real, so the two results are one function of the arguments — no finiteness of the inputs is used.

  The kernel's result array is read off its generated frame run block by block (Proof/BlocksToArray.lean over the generated
  value leg), each block being the attention of its 64 problems (Proof/BlockAttention.lean, Proof/BlockOps.lean); the
  reference's result is its generated run read stage by stage (Proof/ReferenceAttention.lean); both are the function
  ⟦attention⟧ of Proof/Attention.lean. The frames are the generated ones; the idealization rewrote no operation, so
  ⟦preserves⟧ has nothing to state.
-/
import proofs.«124734_j49220325212255_1_alg».proof.Defs
import proofs.«124734_j49220325212255_1_alg».proof.Proof.Gen.Kernel
import proofs.«124734_j49220325212255_1_alg».proof.Proof.Gen.Kernel.Skeleton
import proofs.«124734_j49220325212255_1_alg».proof.Proof.Gen.Kernel.Launch
import proofs.«124734_j49220325212255_1_alg».proof.Proof.Gen.Kernel.Points
import proofs.«124734_j49220325212255_1_alg».proof.Proof.Gen.Kernel.Frame
import proofs.«124734_j49220325212255_1_alg».proof.Proof.Gen.KernelIdeal
import proofs.«124734_j49220325212255_1_alg».proof.Proof.Gen.KernelIdeal.Skeleton
import proofs.«124734_j49220325212255_1_alg».proof.Proof.Gen.KernelIdeal.Launch
import proofs.«124734_j49220325212255_1_alg».proof.Proof.Gen.KernelIdeal.Points
import proofs.«124734_j49220325212255_1_alg».proof.Proof.Gen.KernelIdeal.Frame
import proofs.«124734_j49220325212255_1_alg».proof.Proof.Gen.ReferenceIdeal
import proofs.«124734_j49220325212255_1_alg».proof.Proof.Gen.Pre_finite_inputs
import proofs.«124734_j49220325212255_1_alg».proof.Proof.Gen.KernelIdeal.Value
import proofs.«124734_j49220325212255_1_alg».proof.Proof.Gen.ReferenceIdeal.Run
import proofs.«124734_j49220325212255_1_alg».proof.Proof.Gen.ReferenceIdeal.Read
import proofs.«124734_j49220325212255_1_alg».proof.Proof.ReferenceAttention
import proofs.«124734_j49220325212255_1_alg».proof.Proof.BlocksToArray
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at the extended reals. -/
theorem frame_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments the kernel's result array ends at the attention function of its arguments, and so
    does the reference's: the reference's composed term is that function (⟦reference_eq⟧), and the arguments agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
